-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x1024 : Shape := ⟨2, ![2048, 1024]⟩
abbrev S1x1024 : Shape := ⟨2, ![1, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x2048 .f32) (main_arg1 : FVec F S2048x1024 .f32) (main_arg2 : FVec F S1x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S8192x2048 : Shape := ⟨2, ![8192, 2048]⟩
abbrev S2048x1024 : Shape := ⟨2, ![2048, 1024]⟩
abbrev S1x1024 : Shape := ⟨2, ![1, 1024]⟩
abbrev S8192x1000 : Shape := ⟨2, ![8192, 1000]⟩
abbrev S1024x2048 : Shape := ⟨2, ![1024, 2048]⟩
abbrev S1024x1000 : Shape := ⟨2, ![1024, 1000]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S1x1024, .f32⟩
  | .hbm, ⟨3, _⟩ => ⟨S8192x1000, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .f32⟩
  | .local _ .vmem, ⟨3, _⟩ => ⟨S1x1024, .f32⟩
  | .local _ .vmem, ⟨4, _⟩ => ⟨S1024x1000, .f32⟩
  | .local _ .vmem, ⟨5, _⟩ => ⟨S1024x1000, .f32⟩
  | .local _ .vmem, ⟨6, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  slices_S1024x1024_o0_0_S1024x1000 : S1024x1024.Slices ![0, 0] S1024x1000
  inb_S1024x1000_S1024x1000_0_0 : ∀ a, (![0, 0] : Fin 2 → Nat) a + S1024x1000.size a ≤ S1024x1000.size a
  h_S1024x1000 : 0 < S1024x1000.numel
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S8192x1000.size a
  hwx0_3 : ∀ i : grid0.Coords, EltTy.bits .f32 = 32 ∨ (Rect.block (s := S8192x1000) S1024x1000.size (cc0_transform_3 i) (hinb0_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x1024 : Shape := ⟨2, ![2048, 1024]⟩
abbrev S1x1024 : Shape := ⟨2, ![1, 1024]⟩
abbrev S8192x1024 : Shape := ⟨2, ![8192, 1024]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩
abbrev S8192x1000 : Shape := ⟨2, ![8192, 1000]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S1x1024, .f32⟩
  | .hbm, ⟨3, _⟩ => ⟨S8192x1024, .f32⟩
  | .hbm, ⟨4, _⟩ => ⟨S8192x1000, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  slices_S8192x1024_S8192x1000_0_0 : S8192x1024.Slices ![0, 0] S8192x1000
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x2048.size a
  hwx0_0 : ∀ i : grid0.Coords, EltTy.bits .f32 = 32 ∨ (Rect.block (s := S8192x2048) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x1024.size a
  hwx0_1 : ∀ i : grid0.Coords, EltTy.bits .f32 = 32 ∨ (Rect.block (s := S2048x1024) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x1024.size a
  hwx0_3 : ∀ i : grid0.Coords, EltTy.bits .f32 = 32 ∨ (Rect.block (s := S8192x1024) S512x512.size (cc0_transform_3 i) (hinb0_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.KernelPieces.lean ====
/-
  What one grid point of the kernel leaves behind, as values.

  The body keeps a copy of the weights in a scratch buffer: at the first grid point it stores the (format-changed)
  weight block there, and at every point it multiplies the point's block of `x` by the scratch's contents, adds the bias
  row and stores the first 1000 columns. Read back as values:
    * at the first point the scratch ends holding `k0_pay1 W` (`W` the weight block) and the output block
      `k0_pay2 X (k0_pay1 W) B` — the product reads the scratch AFTER the store, so it sees what was just stored;
    * at a later point the scratch keeps what it held, `S`, and the output block is `k0_pay2 X S B`.
  Each is one store through the whole staging buffer, so the buffer's contents are the store's payload.
-/
import proofs.«172142_g2000707005568066_pallasbulk_931_26_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Offsets `[0, 0]`: a rectangle at them with the buffer's extents is the whole buffer. -/
theorem hz : (![0, 0] : Fin 2 → Nat) = fun _ => 0 := funext fun a => by fin_cases a <;> rfl

/-- FIRST POINT, the scratch: it ends holding the format-changed weight block. -/
theorem scratch_first (c : Dev nD) (i : grid0.Coords) (a1 : Memref sig .tc .vmem S1024x2048 .f32) (h1 : a1.IsWhole) (a2 : Memref sig .tc .vmem S2048x1024 .f32) (h2 : a2.IsWhole) (a3 : Memref sig .tc .vmem S1x1024 .f32) (h3 : a3.IsWhole) (a4 : Memref sig .tc .vmem S1024x1000 .f32) (h4 : a4.IsWhole) (a5 : Memref sig .tc .vmem S2048x1024 .bf16) (h5 : a5.IsWhole) (hc : cond0_0 i)
    (x0 : Vec F S1024x2048 .f32) (x1 : Vec F S2048x1024 .f32) (x2 : Vec F S1x1024 .f32) :
    sout0_A_0 c i a1 h1 a2 h2 a3 h3 a4 h4 a5 h5 hc x0 x1 x2 = k0_pay1 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  simp only [View.readAt_eq_ld, h2.read_unread, View.ld_unit_zero (S := S2048x1024) hz]

/-- FIRST POINT, the output block: the product is taken against the scratch as just stored. -/
theorem out_first (c : Dev nD) (i : grid0.Coords) (a1 : Memref sig .tc .vmem S1024x2048 .f32) (h1 : a1.IsWhole) (a2 : Memref sig .tc .vmem S2048x1024 .f32) (h2 : a2.IsWhole) (a3 : Memref sig .tc .vmem S1x1024 .f32) (h3 : a3.IsWhole) (a4 : Memref sig .tc .vmem S1024x1000 .f32) (h4 : a4.IsWhole) (a5 : Memref sig .tc .vmem S2048x1024 .bf16) (h5 : a5.IsWhole) (hc : cond0_0 i)
    (x0 : Vec F S1024x2048 .f32) (x1 : Vec F S2048x1024 .f32) (x2 : Vec F S1x1024 .f32) :
    out0_A_3 c i a1 h1 a2 h2 a3 h3 a4 h4 a5 h5 hc x0 x1 x2 = k0_pay2 x0 (k0_pay1 x1) x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz, View.readCov_unit_zero (S := S2048x1024) _ hz]
  simp only [View.readAt_eq_ld, h1.read_unread, h2.read_unread, h3.read_unread, View.ld_unit_zero (S := S1024x2048) hz,
    View.ld_unit_zero (S := S2048x1024) hz, View.ld_unit_zero (S := S1x1024) hz]

/-- A LATER POINT, the output block: the product is taken against what the scratch held, `xs0`. -/
theorem out_later (c : Dev nD) (i : grid0.Coords) (a1 : Memref sig .tc .vmem S1024x2048 .f32) (h1 : a1.IsWhole) (a2 : Memref sig .tc .vmem S2048x1024 .f32) (h2 : a2.IsWhole) (a3 : Memref sig .tc .vmem S1x1024 .f32) (h3 : a3.IsWhole) (a4 : Memref sig .tc .vmem S1024x1000 .f32) (h4 : a4.IsWhole) (a5 : Memref sig .tc .vmem S2048x1024 .bf16) (h5 : a5.IsWhole) (hc : ¬cond0_0 i)
    (x0 : Vec F S1024x2048 .f32) (x1 : Vec F S2048x1024 .f32) (x2 : Vec F S1x1024 .f32) (xs0 : Vec F S2048x1024 .bf16) :
    out0_B_3 c i a1 h1 a2 h2 a3 h3 a4 h4 a5 h5 hc x0 x1 x2 xs0 = k0_pay2 x0 xs0 x2 := by
  unfold out0_B_3
  rw [View.read_writes_eq_canon _ _ _ (cover0_B_3 c i a1 h1 a2 h2 a3 h3 a4 h4 a5 h5 hc x0 x1 x2 xs0)]
  unfold kernelRun0_B
  dsimp only
  rw [View.canon_unit_zero hz]
  simp only [View.readAt_eq_ld, h1.read_unread, h3.read_unread, h5.read_unread, View.ld_unit_zero (S := S1024x2048) hz,
    View.ld_unit_zero (S := S2048x1024) hz, View.ld_unit_zero (S := S1x1024) hz]

end Cert.KernelIdeal.Pieces

end
-- ==== Proof.KernelFold.lean ====
/-
  The kernel's scratch and output block after every grid point.

  The weight window's block is the same at every point (`hW`: it is `W`). The scratch is stored at the first point
  and only read afterwards, so by induction on the point it holds `k0_pay1 W` after every point; hence every point's
  output block is `k0_pay2 X (k0_pay1 W) B` of that point's blocks `X` of `x` and `B` of the bias.
-/
import proofs.«172142_g2000707005568066_pallasbulk_931_26_alg».proof.Proof.KernelPieces

noncomputable section

open Idealize.ShloMosaic Idealize.ShloMosaic.TcCoe Idealize.SL.Sem

namespace Cert.KernelIdeal.Fold

open Cert.KernelIdeal Cert.KernelIdeal.Gen Cert.KernelIdeal.Pieces

variable {F : FTy → Type} [FloatOps F]
variable (m : (ℓ : Loc nD τ sig) → Buf (Elt F) ℓ)

set_option maxHeartbeats 1000000 in
/-- After every point the scratch holds the format-changed weights: stored at point 0, kept afterwards. -/
theorem scratch_after (c : Dev nD) (W : Vec F S2048x1024 .f32)
    (hW : ∀ t : Fin cfg0.N, (iblk m c 1 t : Vec F S2048x1024 .f32) = W) (n : ℕ) (h : n < cfg0.N) :
    (outsAt0 m c n h).2 = k0_pay1 W := by
  induction n with
  | zero =>
    rw [outsAt0_A m c ⟨0, h⟩ rfl]
    dsimp only
    refine (scratch_first c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) (ms0_3 ⟨0, h⟩) (hs0_3 ⟨0, h⟩) scM0_0 (Memref.isWhole_whole _) ((hcond0_0 ⟨0, h⟩).mpr rfl)
      (iblk m c 0 ⟨0, h⟩) (iblk m c 1 ⟨0, h⟩) (iblk m c 2 ⟨0, h⟩)).trans ?_
    rw [hW ⟨0, h⟩]
  | succ n ih =>
    have hN : cfg0.N = 8 := N_0
    have hB : ¬(⟨n + 1, h⟩ : Fin cfg0.N).val % 8 = 0 := by dsimp only; omega
    rw [outsAt0_B m c ⟨n + 1, h⟩ hB]
    dsimp only
    unfold sout0_B_0
    exact ih _

set_option maxHeartbeats 1000000 in
/-- Every point's output block: that point's block of `x` against the stored weights, plus the bias block. -/
theorem out_after (c : Dev nD) (W : Vec F S2048x1024 .f32)
    (hW : ∀ t : Fin cfg0.N, (iblk m c 1 t : Vec F S2048x1024 .f32) = W) (t : Fin cfg0.N) :
    (outsAt0 m c t.val t.isLt).1 = k0_pay2 (iblk m c 0 t) (k0_pay1 W) (iblk m c 2 t) := by
  by_cases h0 : t.val % 8 = 0
  · rw [outsAt0_A m c t h0]
    dsimp only
    refine (out_first c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t)).trans ?_
    rw [hW t]
  · rw [outsAt0_B m c t h0]
    dsimp only
    refine (out_later c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      ((outsAt0 m c (t.val - 1) (Nat.lt_of_le_of_lt (Nat.sub_le _ _) t.isLt)).2)).trans ?_
    rw [scratch_after m c W hW]

end Cert.KernelIdeal.Fold

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.SumHalves.lean ====
/-
  A sum of 2048 extended reals is the sum of its first 1024 terms plus the sum of its last 1024 terms.
  Addition on the extended reals is a commutative monoid (also at the infinities), so no finiteness is asked of the terms.
-/
import Mathlib.Algebra.BigOperators.Fin
import Mathlib.Data.EReal.Basic

open scoped BigOperators

namespace Cert.LinearHead

/-- Splitting the contraction axis in two halves: `∑_{k<2048} f k = ∑_{k<1024} f k + ∑_{k<1024} f (1024 + k)`. -/
theorem sum_halves (f : Fin 2048 → EReal) :
    ∑ k : Fin 2048, f k
      = ∑ k : Fin 1024, f (Fin.castAdd 1024 k) + ∑ k : Fin 1024, f (Fin.natAdd 1024 k) :=
  Fin.sum_univ_add (M := EReal) (a := 1024) (b := 1024) f

end Cert.LinearHead
-- ==== Proof.Spec.lean ====
/-
  The linear classifier head as one function of its argument arrays, over the extended reals:

      head x wt b (r, n) = (∑_{k < 2048} x (r, k) * wt (k, n)) + b (0, n),     r < 8192, n < 1000,

  where `wt` and `b` carry 1024 columns of which the result keeps the first 1000 (`headPad` is the same on all 1024
  columns: what is computed before the last 24 are dropped). Beside it, the regrouping that a
  two-step accumulation over the halves of the contraction axis needs: started from `b`, adding the first half's sum and
  then the second half's sum gives the whole sum plus `b`. Only associativity and commutativity of addition on the
  extended reals are used, which hold at the infinities too: nothing is asked of the entries.
-/
import Idealize.ShloMosaic.Lib.ValueIdx
import proofs.«172142_g2000707005568066_pallasbulk_931_26_alg».proof.Proof.SumHalves

noncomputable section

open scoped BigOperators

namespace Cert.LinearHead

open Idealize.ShloMosaic Idealize.ShloMosaic.ValueIdx

/-- A kept column, as a column of the 1024-column operands. -/
abbrev padCol (q : Fin 1000) : Fin 1024 := Fin.castLE (by decide) q

/-- One entry of the head: row `r` of `x` against column `q` of `wt`, plus the bias of that column. -/
def headAt (x : (⟨2, ![8192, 2048]⟩ : Shape).Idx → EReal) (wt : (⟨2, ![2048, 1024]⟩ : Shape).Idx → EReal)
    (b : (⟨2, ![1, 1024]⟩ : Shape).Idx → EReal) (r : Fin 8192) (q : Fin 1000) : EReal :=
  (∑ k : Fin 2048, x (ix2 r k) * wt (ix2 k (padCol q))) + b (ix2 (0 : Fin 1) (padCol q))

/-- The head as a whole array. -/
def head (x : (⟨2, ![8192, 2048]⟩ : Shape).Idx → EReal) (wt : (⟨2, ![2048, 1024]⟩ : Shape).Idx → EReal)
    (b : (⟨2, ![1, 1024]⟩ : Shape).Idx → EReal) : (⟨2, ![8192, 1000]⟩ : Shape).Idx → EReal :=
  fun i => headAt x wt b (i 0 : Fin 8192) (i 1 : Fin 1000)

/-- One entry of the head on all 1024 columns of the operands (the result keeps the first 1000). -/
def headPadAt (x : (⟨2, ![8192, 2048]⟩ : Shape).Idx → EReal) (wt : (⟨2, ![2048, 1024]⟩ : Shape).Idx → EReal)
    (b : (⟨2, ![1, 1024]⟩ : Shape).Idx → EReal) (r : Fin 8192) (cq : Fin 1024) : EReal :=
  (∑ k : Fin 2048, x (ix2 r k) * wt (ix2 k cq)) + b (ix2 (0 : Fin 1) cq)

/-- The head on all 1024 columns, as a whole array. -/
def headPad (x : (⟨2, ![8192, 2048]⟩ : Shape).Idx → EReal) (wt : (⟨2, ![2048, 1024]⟩ : Shape).Idx → EReal)
    (b : (⟨2, ![1, 1024]⟩ : Shape).Idx → EReal) : (⟨2, ![8192, 1024]⟩ : Shape).Idx → EReal :=
  fun i => headPadAt x wt b (i 0 : Fin 8192) (i 1 : Fin 1024)

/-- A kept entry of the head is the padded head's entry in the same row and column. -/
theorem headAt_eq_pad (x : (⟨2, ![8192, 2048]⟩ : Shape).Idx → EReal) (wt : (⟨2, ![2048, 1024]⟩ : Shape).Idx → EReal)
    (b : (⟨2, ![1, 1024]⟩ : Shape).Idx → EReal) (r : Fin 8192) (q : Fin 1000) :
    headAt x wt b r q = headPadAt x wt b r (padCol q) := rfl

/-- Accumulating the two halves of the contraction axis onto `b`, one after the other, is the whole sum plus `b`. -/
theorem two_step (f : Fin 2048 → EReal) (b : EReal) :
    (b + ∑ k : Fin 1024, f (Fin.castAdd 1024 k)) + ∑ k : Fin 1024, f (Fin.natAdd 1024 k)
      = (∑ k : Fin 2048, f k) + b := by
  rw [sum_halves, add_assoc, add_comm]

/-- The padded head's entry, reached in two steps over the halves of the contraction axis, starting from the bias. -/
theorem headPadAt_two_step (x : (⟨2, ![8192, 2048]⟩ : Shape).Idx → EReal) (wt : (⟨2, ![2048, 1024]⟩ : Shape).Idx → EReal)
    (b : (⟨2, ![1, 1024]⟩ : Shape).Idx → EReal) (r : Fin 8192) (cq : Fin 1024) :
    (b (ix2 (0 : Fin 1) cq) + ∑ k : Fin 1024, x (ix2 r (Fin.castAdd 1024 k)) * wt (ix2 (Fin.castAdd 1024 k) cq))
        + ∑ k : Fin 1024, x (ix2 r (Fin.natAdd 1024 k)) * wt (ix2 (Fin.natAdd 1024 k) cq)
      = headPadAt x wt b r cq :=
  two_step (fun k => x (ix2 r k) * wt (ix2 k cq)) (b (ix2 (0 : Fin 1) cq))

end Cert.LinearHead
-- ==== Proof.KernelPoint.lean ====
/-
  One entry of the kernel's output block, over the extended reals.

  The block is the first 1000 columns of `X · S + B` (row-broadcast bias), where `S` is the format-changed weight
  block; over the extended reals a change of float format is the identity, so entry `(p, q)` is
  `(∑_{k < 2048} X (p, k) * W (k, q)) + B (0, q)`.
-/
import proofs.«172142_g2000707005568066_pallasbulk_931_26_alg».proof.Proof.Gen.KernelIdeal.Skeleton
import proofs.«172142_g2000707005568066_pallasbulk_931_26_alg».proof.Proof.LibPlainMatmul
import proofs.«172142_g2000707005568066_pallasbulk_931_26_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Point

open Cert.KernelIdeal Cert.KernelIdeal.Gen Cert.LinearHead

/-- Entry `(p, q)` of a point's output block, from the point's block `X` of `x`, the weights `W` and the bias `B`. -/
theorem block_at (X : FVec Ideal S1024x2048 .f32) (W : FVec Ideal S2048x1024 .f32) (B : FVec Ideal S1x1024 .f32)
    (p : Fin 1024) (q : Fin 1000) :
    k0_pay2 (F := Ideal) X (k0_pay1 (F := Ideal) W) B (ix2 p q)
      = (∑ k : Fin 2048, X (ix2 p k) * W (ix2 k (padCol q))) + B (ix2 (0 : Fin 1) (padCol q)) := by
  unfold k0_pay2 k0_pay1
  refine (extractStridedSlice_apply (![0, 0]) _ _ (ix2 p q) (ix2 p (padCol q)) (fun a => by
    match a with
    | ⟨0, _⟩ => show p.val = 0 + p.val; omega
    | ⟨1, _⟩ => show q.val = 0 + q.val; omega)).trans ?_
  refine congrArg₂ (· + ·) ?_ ?_
  · refine (PlainMatmul.matmul_zero_apply dot_S1024x2048_S2048x1024_S1024x1024_1_0_0_1_n_n rfl rfl rfl rfl rfl rfl none
      _ _ p (padCol q)).trans ?_
    refine Finset.sum_congr rfl fun k _ => ?_
    rw [shapeCast_self]
    rfl
  · exact broadcastTo_apply B _ (ix2 p (padCol q)) (ix2 (0 : Fin 1) (padCol q)) (fun a => by
      match a with
      | ⟨0, _⟩ => rfl
      | ⟨1, _⟩ => rfl)

end Cert.KernelIdeal.Point

end
-- ==== Proof.KernelArray.lean ====
/-
  The kernel's result array, as one function of the argument arrays (over the extended reals).

  Grid point `t` (of 8) works on rows `1024 t … 1024 t + 1023`: its block of `x` is those rows, the weight and bias
  windows' blocks are the whole arrays at every point, and the output block is written to those rows of the result.
  So what point `t` writes back is the restriction of `head x wt b` to its rows, the 8 row blocks cover the result,
  and the result array ends at `head x wt b`.
-/
import proofs.«172142_g2000707005568066_pallasbulk_931_26_alg».proof.Proof.KernelFold
import proofs.«172142_g2000707005568066_pallasbulk_931_26_alg».proof.Proof.KernelPoint
import proofs.«172142_g2000707005568066_pallasbulk_931_26_alg».proof.Proof.Gen.KernelIdeal.Value
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.LinearHead

variable (m : (ℓ : Loc nD τ sig) → Buf (Elt Ideal) ℓ) (ρ : Dev nD → PrngReg)

/-- The index maps over the grid: `x` and the result move one row block per point, weights and bias stay put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s row block, as a row of the whole arrays. -/
def row (t : Fin cfg0.N) (p : Fin 1024) : Fin 8192 :=
  ⟨1024 * t.val + p.val, by have := lt_of_lt_of_eq t.isLt (show cfg0.N = 8 from N_0); have := p.isLt; omega⟩

/-- The weight window's block is the whole weight array, at every point. -/
theorem wblk_eq (c : Dev nD) (t : Fin cfg0.N) :
    (iblk m c 1 t : Vec Ideal S2048x1024 .f32) = (m ((c : Thread nD τ).loc main_arg1)) := by
  obtain ⟨-, -, e2, e3, -⟩ := idx_facts t
  funext j
  show V m c main_arg1 (((cfg0.win 1).blk t).view.emb j) = (m ((c : Thread nD τ).loc main_arg1)) j
  refine congrArg (m ((c : Thread nD τ).loc main_arg1)) ?_
  funext a; apply Fin.ext
  match a with
  | ⟨0, _⟩ => show win0_1.index t (0 : Fin 2) * 2048 + 1 * (j 0).val = (j 0).val; omega
  | ⟨1, _⟩ => show win0_1.index t (1 : Fin 2) * 1024 + 1 * (j 1).val = (j 1).val; omega

/-- The bias window's block is the whole bias row, at every point. -/
theorem bblk_eq (c : Dev nD) (t : Fin cfg0.N) :
    (iblk m c 2 t : Vec Ideal S1x1024 .f32) = (m ((c : Thread nD τ).loc main_arg2)) := by
  obtain ⟨-, -, -, -, e4, e5, -⟩ := idx_facts t
  funext j
  show V m c main_arg2 (((cfg0.win 2).blk t).view.emb j) = (m ((c : Thread nD τ).loc main_arg2)) j
  refine congrArg (m ((c : Thread nD τ).loc main_arg2)) ?_
  funext a; apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega

/-- Point `t`'s block of `x` is rows `1024 t …` of `x`. -/
theorem xblk_at (c : Dev nD) (t : Fin cfg0.N) (p : Fin 1024) (k : Fin 2048) :
    (iblk m c 0 t : Vec Ideal S1024x2048 .f32) (ix2 p k) = (m ((c : Thread nD τ).loc main_arg0)) (ix2 (row t p) k) := by
  obtain ⟨e0, e1, -⟩ := idx_facts t
  show V m c main_arg0 (((cfg0.win 0).blk t).view.emb (ix2 p k)) = (m ((c : Thread nD τ).loc main_arg0)) (ix2 (row t p) k)
  refine congrArg (m ((c : Thread nD τ).loc main_arg0)) ?_
  funext a; apply Fin.ext
  match a with
  | ⟨0, _⟩ => show win0_0.index t (0 : Fin 2) * 1024 + 1 * p.val = 1024 * t.val + p.val; omega
  | ⟨1, _⟩ => show win0_0.index t (1 : Fin 2) * 2048 + 1 * k.val = k.val; omega

set_option maxHeartbeats 1000000 in
/-- WHAT POINT `t` WRITES BACK is its row block of `head x wt b`. -/
theorem flushed_eq (c : Dev nD) (t : Fin cfg0.N) :
    (dats m 0 c).flushed 3 t
      = ((cfg0.win 3).blk t).view.read (Elt Ideal) (head (m ((c : Thread nD τ).loc main_arg0)) (m ((c : Thread nD τ).loc main_arg1)) (m ((c : Thread nD τ).loc main_arg2))) := by
  rw [Value.flushed3, Fold.out_after m c (m ((c : Thread nD τ).loc main_arg1)) (wblk_eq m c) t]
  obtain ⟨-, -, -, -, -, -, e6, e7⟩ := idx_facts t
  funext j
  obtain ⟨p, q, rfl⟩ : ∃ (p : Fin 1024) (q : Fin 1000), j = ix2 p q := ⟨j 0, j 1, eq_ix2 j⟩
  have hr : ((cfg0.win 3).blk t).view.emb (ix2 p q) = ix2 (row t p) q := by
    funext a; apply Fin.ext
    match a with
    | ⟨0, _⟩ => show win0_3.index t (0 : Fin 2) * 1024 + 1 * p.val = 1024 * t.val + p.val; omega
    | ⟨1, _⟩ => show win0_3.index t (1 : Fin 2) * 1000 + 1 * q.val = q.val; omega
  show k0_pay2 (F := Ideal) (iblk m c 0 t) (k0_pay1 (F := Ideal) (m ((c : Thread nD τ).loc main_arg1))) (iblk m c 2 t) (ix2 p q)
    = head (m ((c : Thread nD τ).loc main_arg0)) (m ((c : Thread nD τ).loc main_arg1)) (m ((c : Thread nD τ).loc main_arg2)) (((cfg0.win 3).blk t).view.emb (ix2 p q))
  rw [hr]
  refine (Point.block_at (iblk m c 0 t) (m ((c : Thread nD τ).loc main_arg1)) (iblk m c 2 t) p q).trans ?_
  show _ = headAt (m ((c : Thread nD τ).loc main_arg0)) (m ((c : Thread nD τ).loc main_arg1)) (m ((c : Thread nD τ).loc main_arg2)) (row t p) q
  unfold headAt
  refine congrArg₂ (· + ·) (Finset.sum_congr rfl fun k _ => congrArg (· * _) (xblk_at m c t p k)) ?_
  exact congrFun (bblk_eq m c t) _

/-- An index of the result is in point `t`'s block iff its row is among the point's rows (the columns are all kept). -/
theorem mem_blk (t : Fin cfg0.N) (i : S8192x1000.Idx) :
    i ∈ ((cfg0.win 3).blk t).view.set ↔ ∀ a : Fin 2, win0_3.index t a * S1024x1000.size a ≤ (i a).val
      ∧ (i a).val < win0_3.index t a * S1024x1000.size a + S1024x1000.size a := by
  show i ∈ ((View.whole main_v0).slice (win0_3.rect t)).set ↔ _
  rw [View.set_slice_whole, Rect.mem_set_unit]
  exact Iff.rfl

/-- Every index of the result is in the block of the point its row falls in, and every point writes its block back. -/
theorem cover (c : Dev nD) (i : S8192x1000.Idx) :
    ∃ t : Fin cfg0.N, (cfg0.win 3).flush t = true ∧ i ∈ ((cfg0.win 3).blk t).view.set := by
  have hi0 : (i 0).val < 8192 := (i 0).isLt
  have hi1 : (i 1).val < 1000 := (i 1).isLt
  have hN : cfg0.N = 8 := N_0
  refine ⟨⟨(i 0).val / 1024, by rw [hN]; omega⟩, flush0_3 _, ?_⟩
  rw [mem_blk]
  obtain ⟨-, -, -, -, -, -, e6, e7⟩ := idx_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e6]; dsimp only; omega
  | ⟨1, _⟩ =>
    show win0_3.index _ (1 : Fin 2) * 1000 ≤ (i 1).val ∧ (i 1).val < win0_3.index _ (1 : Fin 2) * 1000 + 1000
    rw [e7]; omega

/-- THE RESULT ARRAY after the run. -/
theorem final (c : Dev nD) :
    (dats m 0 c).arrAt 3 cfg0.N = head (m ((c : Thread nD τ).loc main_arg0)) (m ((c : Thread nD τ).loc main_arg1)) (m ((c : Thread nD τ).loc main_arg2)) :=
  (dats m 0 c).arrAt_eq_of_cover 3 _ (fun t _ => flushed_eq m c t) (cover c)

/-- The run, read: the result array at `head` of the arguments, the arguments unchanged. -/
theorem run : θ_run defs (onTc (τ := τ) (main (F := Ideal))) ⟨m, fun _ => 0, ρ⟩ fun r => ∀ c : Dev nD,
      r.2.mem ((c : Thread nD τ).loc main_v0) = head (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefPieces.lean ====
/-
  What one grid point of the reference's kernel leaves behind, as values.

  The reference accumulates over the contraction axis in two grid steps, in an f32 scratch block:
    * at a first step (the contraction coordinate is 0) the scratch is set to the bias row broadcast down the rows
      (`k0_pay1 B`) and then the step's partial product is added to it: the scratch ends at
      `k0_pay2 X Wt (k0_pay1 B)` — the addition reads the scratch AFTER the reset;
    * at a last step (the coordinate is 1) the partial product is added to what the scratch held, `xs0`, and the
      scratch is copied to the output block: both end at `k0_pay2 X Wt xs0`.
  Every store goes through a whole staging buffer, so a buffer's contents are its last store's payload.
-/
import proofs.«172142_g2000707005568066_pallasbulk_931_26_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem

namespace Cert.ReferenceIdeal.Pieces

open Cert.ReferenceIdeal Cert.ReferenceIdeal.Gen

variable {F : FTy → Type} [FloatOps F]

/-- Offsets `[0, 0]`: a rectangle at them with the buffer's extents is the whole buffer. -/
theorem hz : (![0, 0] : Fin 2 → Nat) = fun _ => 0 := funext fun a => by fin_cases a <;> rfl

/-- A FIRST STEP, the scratch: the bias broadcast, plus the step's partial product. -/
theorem acc_first (c : Dev nD) (i : grid0.Coords) (a3 : Memref sig .tc .vmem S512x1024 .f32) (h3 : a3.IsWhole) (a4 : Memref sig .tc .vmem S1024x512 .f32) (h4 : a4.IsWhole) (a5 : Memref sig .tc .vmem S1x512 .f32) (h5 : a5.IsWhole) (a6 : Memref sig .tc .vmem S512x512 .f32) (h6 : a6.IsWhole) (a7 : Memref sig .tc .vmem S512x512 .f32) (h7 : a7.IsWhole) (hc0 : cond0_0 i) (hc1 : ¬cond0_1 i) (x0 : Vec F S512x1024 .f32) (x1 : Vec F S1024x512 .f32) (x2 : Vec F S1x512 .f32) :
    sout0_A_0 c i a3 h3 a4 h4 a5 h5 a6 h6 a7 h7 hc0 hc1 x0 x1 x2 = k0_pay2 x0 x1 (k0_pay1 x2) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x512) hz, View.readCov_unit_zero (S := S512x512) _ hz]
  simp only [View.readAt_eq_ld, h3.read_unread, h4.read_unread, h5.read_unread, h7.read_unread, View.ld_unit_zero (S := S512x1024) hz,
    View.ld_unit_zero (S := S1024x512) hz, View.ld_unit_zero (S := S1x512) hz, View.ld_unit_zero (S := S512x512) hz]

/-- A LAST STEP, the scratch: what it held plus the step's partial product. -/
theorem acc_last (c : Dev nD) (i : grid0.Coords) (a3 : Memref sig .tc .vmem S512x1024 .f32) (h3 : a3.IsWhole) (a4 : Memref sig .tc .vmem S1024x512 .f32) (h4 : a4.IsWhole) (a5 : Memref sig .tc .vmem S1x512 .f32) (h5 : a5.IsWhole) (a6 : Memref sig .tc .vmem S512x512 .f32) (h6 : a6.IsWhole) (a7 : Memref sig .tc .vmem S512x512 .f32) (h7 : a7.IsWhole) (hc0 : ¬cond0_0 i) (hc1 : cond0_1 i) (x0 : Vec F S512x1024 .f32) (x1 : Vec F S1024x512 .f32) (x2 : Vec F S1x512 .f32) (xs0 : Vec F S512x512 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h5.read_unread, h7.read_unread, View.ld_unit_zero (S := S512x1024) hz,
    View.ld_unit_zero (S := S1024x512) hz, View.ld_unit_zero (S := S1x512) hz, View.ld_unit_zero (S := S512x512) hz]

/-- A LAST STEP, the output block: a copy of the scratch as just accumulated. -/
theorem out_last (c : Dev nD) (i : grid0.Coords) (a3 : Memref sig .tc .vmem S512x1024 .f32) (h3 : a3.IsWhole) (a4 : Memref sig .tc .vmem S1024x512 .f32) (h4 : a4.IsWhole) (a5 : Memref sig .tc .vmem S1x512 .f32) (h5 : a5.IsWhole) (a6 : Memref sig .tc .vmem S512x512 .f32) (h6 : a6.IsWhole) (a7 : Memref sig .tc .vmem S512x512 .f32) (h7 : a7.IsWhole) (hc0 : ¬cond0_0 i) (hc1 : cond0_1 i) (x0 : Vec F S512x1024 .f32) (x1 : Vec F S1024x512 .f32) (x2 : Vec F S1x512 .f32) (xs0 : Vec F S512x512 .f32) :
    out0_B_3 c i a3 h3 a4 h4 a5 h5 a6 h6 a7 h7 hc0 hc1 x0 x1 x2 xs0 = k0_pay2 x0 x1 xs0 := by
  unfold out0_B_3
  rw [View.read_writes_eq_canon _ _ _ (cover0_B_3 c i a3 h3 a4 h4 a5 h5 a6 h6 a7 h7 hc0 hc1 x0 x1 x2 xs0)]
  unfold kernelRun0_B
  dsimp only
  sl_unfold_words
  rw [View.canon_unit_zero hz, View.readCov_unit_zero (S := S512x512) _ hz]
  simp only [View.readAt_eq_ld, h3.read_unread, h4.read_unread, h5.read_unread, h7.read_unread, View.ld_unit_zero (S := S512x1024) hz,
    View.ld_unit_zero (S := S1024x512) hz, View.ld_unit_zero (S := S1x512) hz, View.ld_unit_zero (S := S512x512) hz]

end Cert.ReferenceIdeal.Pieces

end
-- ==== Proof.RefFold.lean ====
/-
  The reference's scratch after a first step, and its output block after a last step.

  Grid points come in consecutive pairs `(t - 1, t)` with `t` odd: the two contraction steps of one output block.
  The first step does not look at what the scratch held, so nothing is carried into a pair: after the even point
  the scratch is `k0_pay2 X' Wt' (k0_pay1 B')` of that point's blocks, and after the odd point the output block is
  `k0_pay2 X Wt` of that.
-/
import proofs.«172142_g2000707005568066_pallasbulk_931_26_alg».proof.Proof.RefPieces

noncomputable section

open Idealize.ShloMosaic Idealize.ShloMosaic.TcCoe Idealize.SL.Sem

namespace Cert.ReferenceIdeal.Fold

open Cert.ReferenceIdeal Cert.ReferenceIdeal.Gen Cert.ReferenceIdeal.Pieces

variable {F : FTy → Type} [FloatOps F]
variable (m : (ℓ : Loc nD τ sig) → Buf (Elt F) ℓ)

set_option maxHeartbeats 1000000 in
/-- After an even point (a first step): the bias broadcast plus that point's partial product. -/
theorem scratch_even (c : Dev nD) (t : Fin cfg0.N) (h0 : t.val % 2 = 0) :
    (outsAt0 m c t.val t.isLt).2 = k0_pay2 (iblk m c 0 t) (iblk m c 1 t) (k0_pay1 (iblk m c 2 t)) := by
  have h1 : ¬t.val % 2 = 1 := by omega
  rw [outsAt0_A m c t h0 h1]
  dsimp only
  exact acc_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

set_option maxHeartbeats 1000000 in
/-- After an odd point (a last step): that point's partial product added to what the point before left. -/
theorem out_odd (c : Dev nD) (t : Fin cfg0.N) (h1 : t.val % 2 = 1) :
    (outsAt0 m c t.val t.isLt).1
      = k0_pay2 (iblk m c 0 t) (iblk m c 1 t) ((outsAt0 m c (t.val - 1) (Nat.lt_of_le_of_lt (Nat.sub_le _ _) t.isLt)).2) := by
  have h0 : ¬t.val % 2 = 0 := by omega
  rw [outsAt0_B m c t h0 h1]
  dsimp only
  exact out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) ((outsAt0 m c (t.val - 1) (Nat.lt_of_le_of_lt (Nat.sub_le _ _) t.isLt)).2)

/-- The point before `t` (for an odd `t`: the first step of `t`'s output block). -/
abbrev prev (t : Fin cfg0.N) : Fin cfg0.N := ⟨t.val - 1, Nat.lt_of_le_of_lt (Nat.sub_le _ _) t.isLt⟩

set_option maxHeartbeats 1000000 in
/-- THE OUTPUT BLOCK OF A PAIR: the second step's partial product added to (the bias broadcast plus the first step's). -/
theorem out_pair (c : Dev nD) (t : Fin cfg0.N) (h1 : t.val % 2 = 1) :
    (outsAt0 m c t.val t.isLt).1
      = k0_pay2 (iblk m c 0 t) (iblk m c 1 t)
          (k0_pay2 (iblk m c 0 (prev t)) (iblk m c 1 (prev t)) (k0_pay1 (iblk m c 2 (prev t)))) := by
  rw [out_odd m c t h1]
  exact congrArg (k0_pay2 (iblk m c 0 t) (iblk m c 1 t)) (scratch_even m c (prev t) (by dsimp only; omega))

end Cert.ReferenceIdeal.Fold

end
-- ==== Proof.RefPoint.lean ====
/-
  One entry of the reference's output block, over the extended reals.

  Over the two contraction steps of one output block the scratch goes `bias → bias + X'·Wt' → (bias + X'·Wt') + X·Wt`
  (`X', Wt'` the first step's blocks, `X, Wt` the second's), and the output block is the last of these: entry `(p, q)` is
  `(B (0, q) + ∑ₖ X' (p, k) * Wt' (k, q)) + ∑ₖ X (p, k) * Wt (k, q)`.
-/
import proofs.«172142_g2000707005568066_pallasbulk_931_26_alg».proof.Proof.Gen.ReferenceIdeal.Skeleton
import proofs.«172142_g2000707005568066_pallasbulk_931_26_alg».proof.Proof.LibPlainMatmul
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.ReferenceIdeal.Point

open Cert.ReferenceIdeal Cert.ReferenceIdeal.Gen

/-- The reset value: the bias row laid along every row of the block. -/
theorem reset_at (B : FVec Ideal S1x512 .f32) (p q : Fin 512) :
    k0_pay1 (F := Ideal) B (ix2 p q) = B (ix2 (0 : Fin 1) q) := by
  unfold k0_pay1
  rw [shapeCast_self, shapeCast_self]
  exact broadcastTo_apply B _ (ix2 p q) (ix2 (0 : Fin 1) q) (fun a => by
    match a with
    | ⟨0, _⟩ => rfl
    | ⟨1, _⟩ => rfl)

/-- One accumulation step: what the scratch held plus the step's partial product. -/
theorem step_at (X : FVec Ideal S512x1024 .f32) (Wt : FVec Ideal S1024x512 .f32) (A : FVec Ideal S512x512 .f32)
    (p q : Fin 512) :
    k0_pay2 (F := Ideal) X Wt A (ix2 p q) = A (ix2 p q) + ∑ k : Fin 1024, X (ix2 p k) * Wt (ix2 k q) := by
  unfold k0_pay2
  rw [shapeCast_self]
  refine congrArg (A (ix2 p q) + ·) ?_
  exact PlainMatmul.matmul_zero_apply dot_S512x1024_S1024x512_S512x512_1_0_0_1_n_n rfl rfl rfl rfl rfl rfl none X Wt p q

/-- The two steps of one output block, from the reset. -/
theorem pair_at (X' X : FVec Ideal S512x1024 .f32) (Wt' Wt : FVec Ideal S1024x512 .f32) (B' : FVec Ideal S1x512 .f32)
    (p q : Fin 512) :
    k0_pay2 (F := Ideal) X Wt (k0_pay2 (F := Ideal) X' Wt' (k0_pay1 (F := Ideal) B')) (ix2 p q)
      = (B' (ix2 (0 : Fin 1) q) + ∑ k : Fin 1024, X' (ix2 p k) * Wt' (ix2 k q)) + ∑ k : Fin 1024, X (ix2 p k) * Wt (ix2 k q) := by
  rw [step_at, step_at, reset_at]

end Cert.ReferenceIdeal.Point

end
-- ==== Proof.RefArray.lean ====
/-
  The array the reference's kernel launch leaves, as one function of the argument arrays (over the extended reals).

  The grid has 16 × 2 × 2 points, `t = 4 i + 2 j + k`: row block `i` (512 rows), column block `j` (512 of the 1024
  columns), contraction step `k` (1024 of the 2048 contraction positions). At point `t` the block of `x` is rows
  `512 i …`, contraction positions `1024 k …`; the block of `wt` is positions `1024 k …`, columns `512 j …`; the block
  of `b` is columns `512 j …`. An odd point (`k = 1`) writes the output block `(i, j)` back, holding
  `(b + first half's sum) + second half's sum`, which is the head's entry by regrouping. The 32 output blocks cover
  the 8192 × 1024 array, so it ends at `headPad x wt b`.
-/
import proofs.«172142_g2000707005568066_pallasbulk_931_26_alg».proof.Proof.RefFold
import proofs.«172142_g2000707005568066_pallasbulk_931_26_alg».proof.Proof.RefPoint
import proofs.«172142_g2000707005568066_pallasbulk_931_26_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.ReferenceIdeal.Whole

open Cert.ReferenceIdeal Cert.ReferenceIdeal.Gen Cert.ReferenceIdeal.Fold Cert.LinearHead

variable (m : (ℓ : Loc nD τ sig) → Buf (Elt Ideal) ℓ) (ρ : Dev nD → PrngReg)

/-- The index maps over the grid, in terms of the point's position `t = 4 i + 2 j + k`. -/
theorem idx_facts : ∀ t : Fin cfg0.N,
    win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = 0 ∧ win0_2.index t (1 : Fin 2) = t.val / 2 % 2
    ∧ win0_3.index t (0 : Fin 2) = t.val / 4 ∧ win0_3.index t (1 : Fin 2) = t.val / 2 % 2 :=
  (by decide +kernel : ∀ t : Fin grid0.N, _)

theorem lt64 (t : Fin cfg0.N) : t.val < 64 := lt_of_lt_of_eq t.isLt (show cfg0.N = 64 from N_0)

/-- Row `p` of point `t`'s row block, as a row of the whole arrays. -/
def rrow (t : Fin cfg0.N) (p : Fin 512) : Fin 8192 :=
  ⟨512 * (t.val / 4) + p.val, by have := lt64 t; have := p.isLt; omega⟩
/-- Column `q` of point `t`'s column block, as a column of the 1024-column arrays. -/
def ccol (t : Fin cfg0.N) (q : Fin 512) : Fin 1024 :=
  ⟨512 * (t.val / 2 % 2) + q.val, by have := q.isLt; omega⟩
/-- Position `k` of point `t`'s contraction step, as a contraction position of the whole arrays. -/
def kpos (t : Fin cfg0.N) (k : Fin 1024) : Fin 2048 :=
  ⟨1024 * (t.val % 2) + k.val, by have := k.isLt; omega⟩

/-- Point `t`'s block of `x`. -/
theorem xblk_at (c : Dev nD) (t : Fin cfg0.N) (p : Fin 512) (k : Fin 1024) :
    (iblk m c 0 t : Vec Ideal S512x1024 .f32) (ix2 p k) = (m ((c : Thread nD τ).loc main_arg0)) (ix2 (rrow t p) (kpos t k)) := by
  obtain ⟨e0, e1, -⟩ := idx_facts t
  show V m c main_arg0 (((cfg0.win 0).blk t).view.emb (ix2 p k)) = (m ((c : Thread nD τ).loc main_arg0)) (ix2 (rrow t p) (kpos t k))
  refine congrArg (m ((c : Thread nD τ).loc main_arg0)) ?_
  funext a; apply Fin.ext
  match a with
  | ⟨0, _⟩ => show win0_0.index t (0 : Fin 2) * 512 + 1 * p.val = 512 * (t.val / 4) + p.val; omega
  | ⟨1, _⟩ => show win0_0.index t (1 : Fin 2) * 1024 + 1 * k.val = 1024 * (t.val % 2) + k.val; omega

/-- Point `t`'s block of `wt`. -/
theorem wblk_at (c : Dev nD) (t : Fin cfg0.N) (k : Fin 1024) (q : Fin 512) :
    (iblk m c 1 t : Vec Ideal S1024x512 .f32) (ix2 k q) = (m ((c : Thread nD τ).loc main_arg1)) (ix2 (kpos t k) (ccol t q)) := by
  obtain ⟨-, -, e2, e3, -⟩ := idx_facts t
  show V m c main_arg1 (((cfg0.win 1).blk t).view.emb (ix2 k q)) = (m ((c : Thread nD τ).loc main_arg1)) (ix2 (kpos t k) (ccol t q))
  refine congrArg (m ((c : Thread nD τ).loc main_arg1)) ?_
  funext a; apply Fin.ext
  match a with
  | ⟨0, _⟩ => show win0_1.index t (0 : Fin 2) * 1024 + 1 * k.val = 1024 * (t.val % 2) + k.val; omega
  | ⟨1, _⟩ => show win0_1.index t (1 : Fin 2) * 512 + 1 * q.val = 512 * (t.val / 2 % 2) + q.val; omega

/-- Point `t`'s block of `b`. -/
theorem bblk_at (c : Dev nD) (t : Fin cfg0.N) (q : Fin 512) :
    (iblk m c 2 t : Vec Ideal S1x512 .f32) (ix2 (0 : Fin 1) q) = (m ((c : Thread nD τ).loc main_arg2)) (ix2 (0 : Fin 1) (ccol t q)) := by
  obtain ⟨-, -, -, -, e4, e5, -⟩ := idx_facts t
  show V m c main_arg2 (((cfg0.win 2).blk t).view.emb (ix2 (0 : Fin 1) q)) = (m ((c : Thread nD τ).loc main_arg2)) (ix2 (0 : Fin 1) (ccol t q))
  refine congrArg (m ((c : Thread nD τ).loc main_arg2)) ?_
  funext a; apply Fin.ext
  match a with
  | ⟨0, _⟩ => show win0_2.index t (0 : Fin 2) * 1 + 1 * 0 = 0; omega
  | ⟨1, _⟩ => show win0_2.index t (1 : Fin 2) * 512 + 1 * q.val = 512 * (t.val / 2 % 2) + q.val; omega

/-- The two steps of a pair share their row block and column block; the first covers the first half of the
    contraction axis, the second the second half. -/
theorem rrow_prev (t : Fin cfg0.N) (h1 : t.val % 2 = 1) (p : Fin 512) : rrow (prev t) p = rrow t p :=
  Fin.ext (by show 512 * ((t.val - 1) / 4) + p.val = 512 * (t.val / 4) + p.val; omega)
theorem ccol_prev (t : Fin cfg0.N) (h1 : t.val % 2 = 1) (q : Fin 512) : ccol (prev t) q = ccol t q :=
  Fin.ext (by show 512 * ((t.val - 1) / 2 % 2) + q.val = 512 * (t.val / 2 % 2) + q.val; omega)
theorem kpos_prev (t : Fin cfg0.N) (h1 : t.val % 2 = 1) (k : Fin 1024) : kpos (prev t) k = Fin.castAdd 1024 k :=
  Fin.ext (by show 1024 * ((t.val - 1) % 2) + k.val = k.val; omega)
theorem kpos_odd (t : Fin cfg0.N) (h1 : t.val % 2 = 1) (k : Fin 1024) : kpos t k = Fin.natAdd 1024 k :=
  Fin.ext (by show 1024 * (t.val % 2) + k.val = 1024 + k.val; omega)

set_option maxHeartbeats 1000000 in
/-- WHAT AN ODD POINT WRITES BACK is its block of `headPad x wt b`. -/
theorem flushed_eq (c : Dev nD) (t : Fin cfg0.N) (hf : (cfg0.win 3).flush t = true) :
    (dats m 0 c).flushed 3 t = ((cfg0.win 3).blk t).view.read (Elt Ideal) (headPad (m ((c : Thread nD τ).loc main_arg0)) (m ((c : Thread nD τ).loc main_arg1)) (m ((c : Thread nD τ).loc main_arg2))) := by
  have h1 : t.val % 2 = 1 := (flush0_3 t).mp hf
  show (cfg0.win 3).cut (grid0.coords t) ((dats m 0 c).after 3 t) = _
  rw [after0_3, out_pair m c t h1]
  obtain ⟨-, -, -, -, -, -, e6, e7⟩ := idx_facts t
  funext j
  obtain ⟨p, q, rfl⟩ : ∃ (p : Fin 512) (q : Fin 512), j = ix2 p q := ⟨j 0, j 1, eq_ix2 j⟩
  have hr : ((cfg0.win 3).blk t).view.emb (ix2 p q) = ix2 (rrow t p) (ccol t q) := by
    funext a; apply Fin.ext
    match a with
    | ⟨0, _⟩ => show win0_3.index t (0 : Fin 2) * 512 + 1 * p.val = 512 * (t.val / 4) + p.val; omega
    | ⟨1, _⟩ => show win0_3.index t (1 : Fin 2) * 512 + 1 * q.val = 512 * (t.val / 2 % 2) + q.val; omega
  show k0_pay2 (F := Ideal) (iblk m c 0 t) (iblk m c 1 t)
      (k0_pay2 (F := Ideal) (iblk m c 0 (prev t)) (iblk m c 1 (prev t)) (k0_pay1 (F := Ideal) (iblk m c 2 (prev t)))) (ix2 p q)
    = headPad (m ((c : Thread nD τ).loc main_arg0)) (m ((c : Thread nD τ).loc main_arg1)) (m ((c : Thread nD τ).loc main_arg2)) (((cfg0.win 3).blk t).view.emb (ix2 p q))
  rw [hr]
  refine (Point.pair_at (iblk m c 0 (prev t)) (iblk m c 0 t) (iblk m c 1 (prev t)) (iblk m c 1 t) (iblk m c 2 (prev t)) p q).trans ?_
  show _ = headPadAt (m ((c : Thread nD τ).loc main_arg0)) (m ((c : Thread nD τ).loc main_arg1)) (m ((c : Thread nD τ).loc main_arg2)) (rrow t p) (ccol t q)
  refine Eq.trans ?_ (headPadAt_two_step (m ((c : Thread nD τ).loc main_arg0)) (m ((c : Thread nD τ).loc main_arg1)) (m ((c : Thread nD τ).loc main_arg2)) (rrow t p) (ccol t q))
  refine congrArg₂ (· + ·) (congrArg₂ (· + ·) ?_ (Finset.sum_congr rfl fun k _ => ?_)) (Finset.sum_congr rfl fun k _ => ?_)
  · rw [bblk_at, ccol_prev t h1]
  · rw [xblk_at, wblk_at, rrow_prev t h1, ccol_prev t h1, kpos_prev t h1]
  · rw [xblk_at, wblk_at, kpos_odd t h1]

/-- An index of the array is in point `t`'s output block iff each coordinate is in the block's range on its axis. -/
theorem mem_blk (t : Fin cfg0.N) (i : S8192x1024.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v0).slice (win0_3.rect t)).set ↔ _
  rw [View.set_slice_whole, Rect.mem_set_unit]
  exact Iff.rfl

/-- Every index of the array is in the output block of the last step of its row block and column block. -/
theorem cover (c : Dev nD) (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 64 := N_0
  have hlt : 4 * ((i 0).val / 512) + 2 * ((i 1).val / 512) + 1 < cfg0.N := by rw [hN]; omega
  refine ⟨⟨4 * ((i 0).val / 512) + 2 * ((i 1).val / 512) + 1, hlt⟩, (flush0_3 _).mpr (by dsimp only; omega), ?_⟩
  rw [mem_blk]
  obtain ⟨-, -, -, -, -, -, e6, e7⟩ := idx_facts ⟨4 * ((i 0).val / 512) + 2 * ((i 1).val / 512) + 1, hlt⟩
  intro a
  match a with
  | ⟨0, _⟩ =>
    show win0_3.index _ (0 : Fin 2) * 512 ≤ (i 0).val ∧ (i 0).val < win0_3.index _ (0 : Fin 2) * 512 + 512
    rw [e6]; dsimp only; omega
  | ⟨1, _⟩ =>
    show win0_3.index _ (1 : Fin 2) * 512 ≤ (i 1).val ∧ (i 1).val < win0_3.index _ (1 : Fin 2) * 512 + 512
    rw [e7]; dsimp only; omega

/-- THE ARRAY THE LAUNCH LEAVES: the head on all 1024 columns. -/
theorem final (c : Dev nD) : (dats m 0 c).arrAt 3 cfg0.N = headPad (m ((c : Thread nD τ).loc main_arg0)) (m ((c : Thread nD τ).loc main_arg1)) (m ((c : Thread nD τ).loc main_arg2)) :=
  (dats m 0 c).arrAt_eq_of_cover 3 _ (fun t hf => flushed_eq m c t hf) (cover c)

end Cert.ReferenceIdeal.Whole

end
-- ==== Proof.RefRun.lean ====
/-
  The reference's result, as one function of the argument arrays (over the extended reals).

  After the kernel launch the program keeps the first 1000 of the 1024 columns (a host slice at offsets `[0, 0]`). The
  launch leaves `headPad x wt b` (the head on all 1024 columns), and its first 1000 columns are `head x wt b`.
-/
import proofs.«172142_g2000707005568066_pallasbulk_931_26_alg».proof.Proof.RefArray
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.ReferenceIdeal.Whole

open Cert.ReferenceIdeal Cert.ReferenceIdeal.Gen Cert.LinearHead

variable (m : (ℓ : Loc nD τ sig) → Buf (Elt Ideal) ℓ) (ρ : Dev nD → PrngReg)

/-- The sliced result is a buffer of the program that no window of the launch stages. -/
theorem v1_mem : main_v1 ∈ Pipeline.restRefs sig (cfgs 0).spec := by decide

/-- What the host slice after the launch computes: the slice of the array the launch left. -/
theorem tail_v1 (c : Dev nD) :
    Pipeline.afterTail₀ cfgs (dats m) 0 (V0 m) [hostOps1] c main_v1
      = extractStridedSlice S8192x1000 ![0, 0] ((dats m 0 c).arrAt 3 cfg0.N) slices_S8192x1024_S8192x1000_0_0 := by
  unfold Pipeline.afterTail₀
  show StableHlo.after hostOps1 _ (Proc.devRef .tc main_v1) = _
  after_results
  exact congrArg (fun a => extractStridedSlice S8192x1000 ![0, 0] a slices_S8192x1024_S8192x1000_0_0)
    (Pipeline.withArrays_arr spec0 launch0.win.arr_inj c _ _ 3)

/-- The first 1000 columns of the head on 1024 columns are the head. -/
theorem slice_headPad (x : (⟨2, ![8192, 2048]⟩ : Shape).Idx → EReal) (wt : (⟨2, ![2048, 1024]⟩ : Shape).Idx → EReal)
    (b : (⟨2, ![1, 1024]⟩ : Shape).Idx → EReal) (h : S8192x1024.Slices ![0, 0] S8192x1000) :
    extractStridedSlice S8192x1000 ![0, 0] (headPad x wt b) h = head x wt b := by
  funext j
  obtain ⟨r, q, rfl⟩ : ∃ (r : Fin 8192) (q : Fin 1000), j = ix2 r q := ⟨j 0, j 1, eq_ix2 j⟩
  refine (extractStridedSlice_apply (![0, 0]) _ h (ix2 r q) (ix2 r (padCol q)) (fun a => by
    match a with
    | ⟨0, _⟩ => show r.val = 0 + r.val; omega
    | ⟨1, _⟩ => show q.val = 0 + q.val; omega)).trans ?_
  rfl

/-- The run, read: the result at `head` of the arguments, the arguments unchanged. -/
theorem run : θ_run defs (onTc (τ := τ) (main (F := Ideal))) ⟨m, fun _ => 0, ρ⟩ fun r => ∀ c : Dev nD,
      r.2.mem ((c : Thread nD τ).loc main_v1) = head (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v1 v1_mem).trans ((tail_v1 m c).trans (by rw [final m c]; exact slice_headPad _ _ _ _)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Whole

end
-- ==== Proof.Algebraic.lean ====
/-
  The kernel and the reference compute the same array over the extended reals.

  Both runs end with their result at `head x wt b` of their own argument arrays — the kernel by one product over the
  whole contraction axis plus the bias, the reference by two half products accumulated onto the bias and a slice —
  and the two programs' argument arrays agree, so the results are equal entry by entry.
-/
import proofs.«172142_g2000707005568066_pallasbulk_931_26_alg».proof.Defs
import proofs.«172142_g2000707005568066_pallasbulk_931_26_alg».proof.Proof.KernelArray
import proofs.«172142_g2000707005568066_pallasbulk_931_26_alg».proof.Proof.RefRun
import proofs.«172142_g2000707005568066_pallasbulk_931_26_alg».proof.Proof.Gen.Pre_finite_inputs

noncomputable section

open Idealize.ShloMosaic Idealize.ShloMosaic.TcCoe Idealize.SL.Sem

namespace Cert.Proof.LinearHeadClaims

open Cert.LinearHead

theorem algebraic : Cert.algebraic_KernelIdeal_ReferenceIdeal := by
  intro m ρ m' ρ' _ hagree
  refine ⟨fun c => head (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩) (Cert.ReferenceIdeal.Whole.run m' ρ')
  rw [(hagree c).1, (hagree c).2.1, (hagree c).2.2]

end Cert.Proof.LinearHeadClaims

end
-- ==== Proof.lean ====
/- The linear classifier head `y = x · wt + b` (x : 8192 × 2048, wt : 2048 × 1024, b : 1 × 1024, the first 1000 of the
   1024 columns kept), computed two ways, is one array over the extended reals.

   The kernel walks 8 row blocks of 1024 rows. At the first block it copies the weights into a scratch buffer (a
   change of float format, the identity over the extended reals) and at every block multiplies the block's rows by the
   scratch over the whole contraction axis, adds the bias row and keeps 1000 columns:
       out (r, n) = (∑_{k < 2048} x (r, k) * wt (k, n)) + b (0, n).
   The reference walks 16 × 2 output blocks of 512 × 512 in two contraction steps each, accumulating in a scratch
   block that the first step resets to the bias row, and slices 1000 columns off the 8192 × 1024 result:
       out (r, n) = (b (0, n) + ∑_{k < 1024} x (r, k) * wt (k, n)) + ∑_{k < 1024} x (r, 1024 + k) * wt (1024 + k, n).
   The two differ by splitting the sum over the contraction axis into its halves and by the order and grouping of
   additions; addition on the extended reals is commutative and associative at the infinities too, so the equality asks
   nothing of the entries (Proof/SumHalves.lean, Proof/Spec.lean).

   Modules: Spec (the head as one function of the arrays, and the regrouping); LibPlainMatmul (a plain matrix product
   at an index is the sum over the contraction axis); KernelPieces, KernelFold, KernelPoint, KernelArray (the kernel:
   what a block leaves, the scratch after every block, one entry, the whole array); RefPieces, RefFold, RefPoint,
   RefArray, RefRun (the same for the reference, and its slice); Algebraic (both results are `head x wt b` of
   arguments that agree). Each program terminates without fault and leaves its arguments unchanged by its run; the
   kernel's idealization rewrote nothing. -/
import proofs.«172142_g2000707005568066_pallasbulk_931_26_alg».proof.Defs
import proofs.«172142_g2000707005568066_pallasbulk_931_26_alg».proof.Proof.Gen.Kernel
import proofs.«172142_g2000707005568066_pallasbulk_931_26_alg».proof.Proof.Gen.Kernel.Skeleton
import proofs.«172142_g2000707005568066_pallasbulk_931_26_alg».proof.Proof.Gen.Kernel.Launch
import proofs.«172142_g2000707005568066_pallasbulk_931_26_alg».proof.Proof.Gen.Kernel.Points
import proofs.«172142_g2000707005568066_pallasbulk_931_26_alg».proof.Proof.Gen.Kernel.Frame
import proofs.«172142_g2000707005568066_pallasbulk_931_26_alg».proof.Proof.Gen.KernelIdeal
import proofs.«172142_g2000707005568066_pallasbulk_931_26_alg».proof.Proof.Gen.KernelIdeal.Skeleton
import proofs.«172142_g2000707005568066_pallasbulk_931_26_alg».proof.Proof.Gen.KernelIdeal.Launch
import proofs.«172142_g2000707005568066_pallasbulk_931_26_alg».proof.Proof.Gen.KernelIdeal.Points
import proofs.«172142_g2000707005568066_pallasbulk_931_26_alg».proof.Proof.Gen.KernelIdeal.Frame
import proofs.«172142_g2000707005568066_pallasbulk_931_26_alg».proof.Proof.Gen.ReferenceIdeal
import proofs.«172142_g2000707005568066_pallasbulk_931_26_alg».proof.Proof.Gen.ReferenceIdeal.Skeleton
import proofs.«172142_g2000707005568066_pallasbulk_931_26_alg».proof.Proof.Gen.ReferenceIdeal.Launch
import proofs.«172142_g2000707005568066_pallasbulk_931_26_alg».proof.Proof.Gen.ReferenceIdeal.Points
import proofs.«172142_g2000707005568066_pallasbulk_931_26_alg».proof.Proof.Gen.ReferenceIdeal.Frame
import proofs.«172142_g2000707005568066_pallasbulk_931_26_alg».proof.Proof.Gen.Pre_finite_inputs
import proofs.«172142_g2000707005568066_pallasbulk_931_26_alg».proof.Proof.Gen.KernelIdeal.Value
import proofs.«172142_g2000707005568066_pallasbulk_931_26_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.ReferenceIdeal.Gen.frame m ρ,
  trivial, LinearHeadClaims.algebraic⟩

end Cert.Proof

end
